-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x256 : Shape := ⟨2, ![512, 256]⟩
abbrev S4096x256 : Shape := ⟨2, ![4096, 256]⟩
abbrev S512x4096 : Shape := ⟨2, ![512, 4096]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .bf16 = 32 ∨ (Rect.block (s := S8192x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid step of the kernel leaves behind, as values, for any float instance. The body keeps a running
  [512, 4096] total in a scratch buffer. Writing `reset` for the all-zero block, `step a w acc` for
  `acc + a · wᵀ` (the product of the step's [512, 256] block of `x` with its [4096, 256] block of `w`, contracted
  along the 256 columns) and `addBias t b` for `t` plus the bias row repeated down the 512 rows:

    • at the first step of a row block (column block 0) the scratch ends at `step a w reset` — the zero block is
      stored, read back, and the step's product added to it;
    • at every later step the scratch ends at `step a w acc`, `acc` being what the step before left;
    • at the last step of a row block (column block 15) the output block, in addition, is
      `addBias (step a w acc) b` — the scratch is read back after its update and the bias added.

  Each is the one store that covers the buffer, read back; a load of a buffer that an earlier store of the same
  step covers reads that store's value.
-/
import proofs.«160339_j15874199126079_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- Offsets (0, 0), however spelt. -/
theorem zero_offsets : (![0, 0] : Fin 2 → Nat) = fun _ => 0 := funext fun a => by fin_cases a <;> rfl

/-- First step of a row block: the scratch ends at the step's product added to the zero block. -/
theorem scratch_first (c : Dev nD) (i : grid0.Coords) (a2 : Memref sig .tc .vmem S512x256 .bf16) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : cond0_0 i) (hc1 : ¬cond0_1 i)
    (x0 : Vec F S512x256 .bf16) (x1 : Vec F S4096x256 .bf16) (x2 : Vec F S1x4096 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x4096) zero_offsets, View.readCov_unit_zero (S := S512x4096) _ zero_offsets]
  simp only [View.readAt_eq_ld, h2.read_unread, h3.read_unread, View.ld_unit_zero (S := S512x256) zero_offsets,
    View.ld_unit_zero (S := S4096x256) zero_offsets]

/-- A middle step: the scratch ends at the step's product added to what the step before left. -/
theorem scratch_middle (c : Dev nD) (i : grid0.Coords) (a2 : Memref sig .tc .vmem S512x256 .bf16) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : ¬cond0_1 i)
    (x0 : Vec F S512x256 .bf16) (x1 : Vec F S4096x256 .bf16) (x2 : Vec F S1x4096 .f32) (xs0 : Vec F S512x4096 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero zero_offsets]
  simp only [View.readAt_eq_ld, h2.read_unread, h3.read_unread, h6.read_unread, View.ld_unit_zero (S := S512x256) zero_offsets,
    View.ld_unit_zero (S := S4096x256) zero_offsets, View.ld_unit_zero (S := S512x4096) zero_offsets]

/-- The last step of a row block updates the scratch as a middle step does. -/
theorem scratch_last (c : Dev nD) (i : grid0.Coords) (a2 : Memref sig .tc .vmem S512x256 .bf16) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : cond0_1 i)
    (x0 : Vec F S512x256 .bf16) (x1 : Vec F S4096x256 .bf16) (x2 : Vec F S1x4096 .f32) (xs0 : Vec F S512x4096 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero zero_offsets]
  simp only [View.readAt_eq_ld, h2.read_unread, h3.read_unread, h6.read_unread, View.ld_unit_zero (S := S512x256) zero_offsets,
    View.ld_unit_zero (S := S4096x256) zero_offsets, View.ld_unit_zero (S := S512x4096) zero_offsets]

/-- … and leaves in the output block the updated scratch plus the bias row. -/
theorem output_last (c : Dev nD) (i : grid0.Coords) (a2 : Memref sig .tc .vmem S512x256 .bf16) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : cond0_1 i)
    (x0 : Vec F S512x256 .bf16) (x1 : Vec F S4096x256 .bf16) (x2 : Vec F S1x4096 .f32) (xs0 : Vec F S512x4096 .f32) :
    out0_C_3 c i a2 h2 a3 h3 a4 h4 a5 h5 a6 h6 hc0 hc1 x0 x1 x2 xs0 = k0_pay3 (k0_pay2 x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero zero_offsets, View.readCov_unit_zero (S := S512x4096) _ zero_offsets]
  simp only [View.readAt_eq_ld, h2.read_unread, h3.read_unread, h4.read_unread, h6.read_unread,
    View.ld_unit_zero (S := S512x256) zero_offsets, View.ld_unit_zero (S := S4096x256) zero_offsets,
    View.ld_unit_zero (S := S512x4096) zero_offsets, View.ld_unit_zero (S := S1x4096) zero_offsets]

end Cert.KernelIdeal.Pieces

end
-- ==== Proof.Payload.lean ====
/-
  The body's three stored values read at an entry, over the extended reals. With `a` the step's [512, 256]
  block of `x`, `w` its [4096, 256] block of the weights, `acc` the running total and `b` the [1, 4096] bias row:

    reset (r, o)            = 0
    step a w acc (r, o)     = acc (r, o) + Σ_{j < 256} a (r, j) · w (o, j)
    addBias t b (r, o)      = t (r, o) + b (0, o)

  The matrix product contracts the second axis of both blocks (row `r` of `a` against row `o` of `w`); started
  from a zero accumulator it is the bare sum. A change of float format is the identity on the extended reals.
-/
import proofs.«160339_j15874199126079_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.TcCoe Idealize.ShloMosaic.ValueIdx
open Cert.KernelIdeal Cert.KernelIdeal.Gen
open scoped BigOperators

/-- The reset value is zero at every entry. -/
theorem reset_apply (y : S512x4096.Idx) : k0_pay1 (F := Ideal) y = 0 := by
  unfold k0_pay1
  simp only [shapeCast_self]
  exact Ideal.ofBits_zero_f32

/-- The product's left operand index at output (r, o) and contraction place q: row r. -/
theorem lhs_row (i : S512x4096.Idx) (q : dot_S512x256_S4096x256_S512x4096_1_1_0_0_n_n.contr.Idx) : (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
/-- … and column q. -/
theorem lhs_col (i : S512x4096.Idx) (q : dot_S512x256_S4096x256_S512x4096_1_1_0_0_n_n.contr.Idx) : (dot_S512x256_S4096x256_S512x4096_1_1_0_0_n_n.lhsIdx i q 1).val = (q ⟨0, by decide⟩).val :=
  dot_S512x256_S4096x256_S512x4096_1_1_0_0_n_n.lhsIdx_val_of_single rfl i q
/-- The right operand index: row o of the weight block, -/
theorem rhs_row (i : S512x4096.Idx) (q : dot_S512x256_S4096x256_S512x4096_1_1_0_0_n_n.contr.Idx) : (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
/-- … and column q. -/
theorem rhs_col (i : S512x4096.Idx) (q : dot_S512x256_S4096x256_S512x4096_1_1_0_0_n_n.contr.Idx) : (dot_S512x256_S4096x256_S512x4096_1_1_0_0_n_n.rhsIdx i q 1).val = (q ⟨0, by decide⟩).val :=
  dot_S512x256_S4096x256_S512x4096_1_1_0_0_n_n.rhsIdx_val_of_single rfl i q

/-- The step's product into a zero accumulator, at entry (r, o): row r of `a` against row o of `w`. -/
theorem product_apply (a : FVec Ideal S512x256 .bf16) (w : FVec Ideal S4096x256 .bf16) (r : Fin 512) (o : Fin 4096) :
    matmul (F := Ideal) dot_S512x256_S4096x256_S512x4096_1_1_0_0_n_n none a w (constant S512x4096 .f32 0x00000000#32) (ix2 r o)
      = ∑ j : Fin 256, a (ix2 r j) * w (ix2 o j) := by
  simp only [matmul]
  rw [Ideal.matmul_constant_zero_apply, ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 r o) ((contrEquiv1 dot_S512x256_S4096x256_S512x4096_1_1_0_0_n_n 256 rfl rfl).symm k) = ix2 r k := funext fun ax => Fin.ext (by
    match ax with
    | ⟨0, _⟩ => exact lhs_row _ _
    | ⟨1, _⟩ => exact (lhs_col _ _).trans hk)
  have er : dot_S512x256_S4096x256_S512x4096_1_1_0_0_n_n.rhsIdx (ix2 r o) ((contrEquiv1 dot_S512x256_S4096x256_S512x4096_1_1_0_0_n_n 256 rfl rfl).symm k) = ix2 o k := funext fun ax => Fin.ext (by
    match ax with
    | ⟨0, _⟩ => exact rhs_row _ _
    | ⟨1, _⟩ => exact (rhs_col _ _).trans hk)
  rw [el, er]

/-- One accumulation step at entry (r, o). -/
theorem step_apply (a : Vec Ideal S512x256 .bf16) (w : Vec Ideal S4096x256 .bf16) (acc : Vec Ideal S512x4096 .f32)
    (r : Fin 512) (o : Fin 4096) :
    k0_pay2 (F := Ideal) a w acc (ix2 r o) = acc (ix2 r o) + ∑ j : Fin 256, a (ix2 r j) * w (ix2 o j) := by
  unfold k0_pay2
  simp only [shapeCast_self]
  exact congrArg (acc (ix2 r o) + ·) (product_apply a w r o)

/-- The bias added at entry (r, o): the bias row's entry o. -/
theorem addBias_apply (t : Vec Ideal S512x4096 .f32) (b : Vec Ideal S1x4096 .f32) (r : Fin 512) (o : Fin 4096) :
    k0_pay3 (F := Ideal) t b (ix2 r o) = t (ix2 r o) + b (ix2 (0 : Fin 1) o) := by
  unfold k0_pay3
  simp only [shapeCast_self]
  exact congrArg (t (ix2 r o) + ·) (broadcastTo_1b_ab_apply b broadcasts_S1x4096_S512x4096 r o)

end Cert.KernelIdeal.Payload

end
-- ==== Proof.LibBlockSum.lean ====
/-
  A finite sum over `a · b` consecutive indices, cut into `a` consecutive blocks of `b` indices each, is the sum of
  the blocks' sums: index `k = b · p + q` with `p` the block and `q` the place inside it. Over an arbitrary additive
  commutative monoid (so also over the extended reals, where only commutativity and associativity of `+` are used).
-/
import Mathlib.Algebra.BigOperators.Fin
import Mathlib.Logic.Equiv.Fin.Basic

namespace Cert.LibBlockSum

open scoped BigOperators

variable {M : Type*} [AddCommMonoid M]

/-- Place `q` of block `p` lies below `a · b`. -/
theorem block_lt {a b : ℕ} (p : Fin a) (q : Fin b) : b * p.val + q.val < a * b := by
  have h1 : b * p.val + q.val < b * p.val + b := Nat.add_lt_add_left q.isLt _
  have h2 : b * p.val + b = b * (p.val + 1) := (Nat.mul_succ b p.val).symm
  have h3 : b * (p.val + 1) ≤ b * a := Nat.mul_le_mul_left b p.isLt
  calc b * p.val + q.val < b * (p.val + 1) := h2 ▸ h1
    _ ≤ b * a := h3
    _ = a * b := Nat.mul_comm b a

/-- The sum over `Fin (a * b)` block by block. -/
theorem sum_mul (a b : ℕ) (g : Fin (a * b) → M) :
    ∑ k : Fin (a * b), g k = ∑ p : Fin a, ∑ q : Fin b, g ⟨b * p.val + q.val, block_lt p q⟩ := by
  rw [← Equiv.sum_comp finProdFinEquiv g, Fintype.sum_prod_type]
  refine Finset.sum_congr rfl fun p _ => Finset.sum_congr rfl fun q _ => ?_
  exact congrArg g (Fin.ext (Nat.add_comm _ _))

/-- The same for an index type `Fin N` with `N = a · b` known by an equation. -/
theorem sum_blocks {N a b : ℕ} (h : N = a * b) (g : Fin N → M) :
    ∑ k : Fin N, g k = ∑ p : Fin a, ∑ q : Fin b, g ⟨b * p.val + q.val, h ▸ block_lt p q⟩ := by
  subst h
  exact sum_mul a b g

end Cert.LibBlockSum
-- ==== Proof.Affine.lean ====
/-
  The affine map both programs compute, as one function of the three argument arrays over the extended reals:

      y[n, o] = (Σ_{k < 4096} x[n, k] · w[o, k]) + b[o]        (n < 8192, o < 4096)

  — the rows of `x` against the ROWS of `w` (both operands contracted along their second axis), plus the bias
  of the output column. The contraction index splits as k = 256 · κ + j (κ < 16 the column block, j < 256 the
  place inside it), and the sum over k is the sum over the blocks of the blocks' sums; that regrouping uses
  only that `+` on the extended reals is commutative and associative, so no entry needs to be finite.
-/
import Idealize.ShloMosaic.PureOps.Ideal
import Idealize.ShloMosaic.Lib.ValueIdx
import proofs.«160339_j15874199126079_2_alg».proof.Proof.LibBlockSum

noncomputable section

namespace Cert.Affine

open Idealize.ShloMosaic Idealize.ShloMosaic.ValueIdx
open scoped BigOperators

/-- The shapes of `x` (and of `y`), of `w`, and of `b`. -/
abbrev SX : Shape := ⟨2, ![8192, 4096]⟩
abbrev SW : Shape := ⟨2, ![4096, 4096]⟩
abbrev SB : Shape := ⟨1, ![4096]⟩

/-- Row `n` of `x` against row `o` of `w`: the sum over the 4096 columns of the products. -/
def rowDot (x : FVec Ideal SX .f32) (w : FVec Ideal SW .f32) (n : Fin 8192) (o : Fin 4096) : EReal :=
  ∑ k : Fin 4096, x (ix2 n k) * w (ix2 o k)

/-- The affine map: entry (n, o) is row `n` of `x` against row `o` of `w`, plus `b[o]`. -/
def affine (x : FVec Ideal SX .f32) (w : FVec Ideal SW .f32) (b : FVec Ideal SB .f32) : FVec Ideal SX .f32 :=
  fun i => rowDot x w (i 0) (i 1) + b (ix1 (i 1))

/-- Column `256 · κ + j`: place `j` of column block `κ`. -/
abbrev col (κ : Fin 16) (j : Fin 256) : Fin 4096 := ⟨256 * κ.val + j.val, by omega⟩

/-- Column block `κ`'s share of the row product: the 256 products of that block. -/
def blockDot (x : FVec Ideal SX .f32) (w : FVec Ideal SW .f32) (n : Fin 8192) (o : Fin 4096) (κ : Fin 16) : EReal :=
  ∑ j : Fin 256, x (ix2 n (col κ j)) * w (ix2 o (col κ j))

/-- The row product is the sum of the sixteen column blocks' shares. -/
theorem rowDot_eq_sum_blocks (x : FVec Ideal SX .f32) (w : FVec Ideal SW .f32) (n : Fin 8192) (o : Fin 4096) :
    rowDot x w n o = ∑ κ : Fin 16, blockDot x w n o κ :=
  Cert.LibBlockSum.sum_blocks (N := 4096) (a := 16) (b := 256) (by norm_num)
    (fun k : Fin 4096 => x (ix2 n k) * w (ix2 o k))

end Cert.Affine

end
-- ==== Proof.Blocks.lean ====
/-
  The blocks of the three arguments that grid step `t` reads, entry by entry, over the extended reals. The grid is
  16 row blocks by 16 column blocks, walked row block by row block: step `t = 16 · α + κ` is row block `α`,
  column block `κ`. There

    • the block of `x` is rows 512 α … 512 α + 511, columns 256 κ … 256 κ + 255 of `x`;
    • the block of `w` is all 4096 rows, columns 256 κ … 256 κ + 255 of `w`;
    • the block of the bias is its one row, whatever the step;
    • the output block is rows 512 α … 512 α + 511, all columns.

  Before the kernel runs, `x` and `w` are rounded to a narrower float format and the bias is reshaped from [4096] to
  [1, 4096]; on the extended reals the rounding is the identity and the reshape reads entry `o` at (0, o).
-/
import proofs.«160339_j15874199126079_2_alg».proof.Proof.Gen.KernelIdeal.Frame
import proofs.«160339_j15874199126079_2_alg».proof.Proof.Affine
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.SL.Sem Idealize.ShloMosaic.ValueIdx
open Idealize.ShloMosaic.StableHlo
open Cert.KernelIdeal Cert.KernelIdeal.Gen
open Cert.Affine (col)

variable (m : (ℓ : Loc nD τ sig) → Buf (Elt Ideal) ℓ)

/-- Row `512 · α + r`: row `r` of row block `α`. -/
abbrev row (α : Fin 16) (r : Fin 512) : Fin 8192 := ⟨512 * α.val + r.val, by omega⟩

/-- The three arguments as the caller passed them, on core `c`. -/
abbrev argX (c : Dev nD) : FVec Ideal S8192x4096 .f32 := m ((c : Thread nD τ).loc main_arg0)
abbrev argW (c : Dev nD) : FVec Ideal S4096x4096 .f32 := m ((c : Thread nD τ).loc main_arg1)
abbrev argB (c : Dev nD) : FVec Ideal S4096 .f32 := m ((c : Thread nD τ).loc main_arg2)

/-- The rounded copy of `x` the kernel reads is `x`. -/
theorem entry_x (c : Dev nD) : (V m c main_v0 : S8192x4096.Idx → EReal) = argX m c := by
  dsimp only [Gen.V, Gen.hostOps0]; after_results; rfl

/-- The rounded copy of `w` the kernel reads is `w`. -/
theorem entry_w (c : Dev nD) : (V m c main_v1 : S4096x4096.Idx → EReal) = argW m c := by
  dsimp only [Gen.V, Gen.hostOps0]; after_results; rfl

/-- The bias row the kernel reads is the bias reshaped to one row. -/
theorem entry_b (c : Dev nD) : (V m c main_v2 : S1x4096.Idx → EReal) = shapeCast S1x4096 (argB m c) shapeCasts_S4096_S1x4096 := by
  dsimp only [Gen.V, Gen.hostOps0]; after_results; rfl

/-- Which block of its array each window is on at step `t`: decided over the 256 steps. -/
theorem block_indices : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- The block of `x` at step `16 α + κ`, at (r, j): `x` at row `512 α + r`, column `256 κ + j`. -/
theorem x_block (c : Dev nD) (t : Fin cfg0.N) (α κ : Fin 16) (ht : t.val = 16 * α.val + κ.val) (r : Fin 512) (j : Fin 256) :
    (iblk m c 0 t : Vec Ideal S512x256 .bf16) (ix2 r j) = argX m c (ix2 (row α r) (col κ j)) := by
  obtain ⟨e0, e1, -⟩ := block_indices t
  show V m c main_v0 (((cfg0.win 0).blk t).view.emb (ix2 r j)) = _
  rw [entry_x]
  refine congrArg (argX m c) (funext fun ax => Fin.ext ?_)
  match ax with
  | ⟨0, _⟩ => show win0_0.index t (0 : Fin 2) * 512 + 1 * r.val = 512 * α.val + r.val; rw [e0]; omega
  | ⟨1, _⟩ => show win0_0.index t (1 : Fin 2) * 256 + 1 * j.val = 256 * κ.val + j.val; rw [e1]; omega

/-- The block of `w` at step `16 α + κ`, at (o, j): `w` at row `o`, column `256 κ + j`. -/
theorem w_block (c : Dev nD) (t : Fin cfg0.N) (α κ : Fin 16) (ht : t.val = 16 * α.val + κ.val) (o : Fin 4096) (j : Fin 256) :
    (iblk m c 1 t : Vec Ideal S4096x256 .bf16) (ix2 o j) = argW m c (ix2 o (col κ j)) := by
  obtain ⟨-, -, e0, e1, -⟩ := block_indices t
  show V m c main_v1 (((cfg0.win 1).blk t).view.emb (ix2 o j)) = _
  rw [entry_w]
  refine congrArg (argW m c) (funext fun ax => Fin.ext ?_)
  match ax with
  | ⟨0, _⟩ => show win0_1.index t (0 : Fin 2) * 4096 + 1 * o.val = o.val; rw [e0]; omega
  | ⟨1, _⟩ => show win0_1.index t (1 : Fin 2) * 256 + 1 * j.val = 256 * κ.val + j.val; rw [e1]; omega

/-- The bias block at any step, at (0, o): the bias at `o`. -/
theorem b_block (c : Dev nD) (t : Fin cfg0.N) (o : Fin 4096) :
    (iblk m c 2 t : Vec Ideal S1x4096 .f32) (ix2 (0 : Fin 1) o) = argB m c (ix1 o) := by
  obtain ⟨-, -, -, -, e0, e1, -⟩ := block_indices t
  show V m c main_v2 (((cfg0.win 2).blk t).view.emb (ix2 (0 : Fin 1) o)) = _
  rw [entry_b]
  have e : ((cfg0.win 2).blk t).view.emb (ix2 (0 : Fin 1) o) = ix2 (0 : Fin 1) o := funext fun ax => Fin.ext (by
    match ax with
    | ⟨0, _⟩ => show win0_2.index t (0 : Fin 2) * 1 + 1 * 0 = 0; rw [e0]
    | ⟨1, _⟩ => show win0_2.index t (1 : Fin 2) * 4096 + 1 * o.val = o.val; rw [e1]; omega)
  rw [e]
  exact shapeCast_a_1a_apply (argB m c) shapeCasts_S4096_S1x4096 (0 : Fin 1) o

/-- The output block at step `16 α + κ`, entry (r, o), sits in the result at row `512 α + r`, column `o`. -/
theorem out_block_entry (t : Fin cfg0.N) (α κ : Fin 16) (ht : t.val = 16 * α.val + κ.val) (r : Fin 512) (o : Fin 4096) :
    ((cfg0.win 3).blk t).view.emb (ix2 r o) = ix2 (row α r) o := by
  obtain ⟨-, -, -, -, -, -, e0, e1⟩ := block_indices t
  refine funext fun ax => Fin.ext ?_
  match ax with
  | ⟨0, _⟩ => show win0_3.index t (0 : Fin 2) * 512 + 1 * r.val = 512 * α.val + r.val; rw [e0]; omega
  | ⟨1, _⟩ => show win0_3.index t (1 : Fin 2) * 4096 + 1 * o.val = o.val; rw [e1]; omega

end Cert.KernelIdeal.Blocks

end
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.Running.lean ====
/-
  The running total the kernel keeps across the sixteen steps of a row block. Fix a row block `α`. Column block
  `κ`'s share is the [512, 4096] block whose entry (r, o) is Σ_{j < 256} x[512 α + r, 256 κ + j] · w[o, 256 κ + j].
  After step `16 α + q` the scratch holds the zero block plus the shares of column blocks 0 … q, added in that
  order (by induction on `q`: the first step resets and adds share 0, each later step adds its own share to what the
  step before left); after the last step, `q = 15`, that is the sum of all sixteen shares.
-/
import proofs.«160339_j15874199126079_2_alg».proof.Proof.Pieces
import proofs.«160339_j15874199126079_2_alg».proof.Proof.Payload
import proofs.«160339_j15874199126079_2_alg».proof.Proof.Blocks
import proofs.«160339_j15874199126079_2_alg».proof.Proof.Affine
import proofs.«160339_j15874199126079_2_alg».proof.Proof.LibRunTotal

noncomputable section

namespace Cert.KernelIdeal.Running

open Idealize.ShloMosaic Idealize.ShloMosaic.TcCoe Idealize.SL.Sem Idealize.ShloMosaic.ValueIdx
open Cert.KernelIdeal Cert.KernelIdeal.Gen Cert.KernelIdeal.Blocks
open Cert.Affine (col blockDot)
open Cert.LibRunTotal (runTotal)
open scoped BigOperators

variable (m : (ℓ : Loc nD τ sig) → Buf (Elt Ideal) ℓ)

/-- Column block `κ`'s share of row block `α`'s products, as a [512, 4096] block. -/
def share (c : Dev nD) (α κ : Fin 16) : S512x4096.Idx → EReal := fun y =>
  blockDot (argX m c) (argW m c) ⟨512 * α.val + (y 0).val, by have := idx2_lt0 y; omega⟩ ⟨(y 1).val, idx2_lt1 y⟩ κ

theorem share_apply (c : Dev nD) (α κ : Fin 16) (r : Fin 512) (o : Fin 4096) :
    share m c α κ (ix2 r o) = blockDot (argX m c) (argW m c) (row α r) o κ := rfl

/-- One accumulation step on blocks that ARE the step's blocks of `x` and `w` adds the step's share. -/
theorem step_adds_share (c : Dev nD) (α κ : Fin 16) (a : Vec Ideal S512x256 .bf16) (w : Vec Ideal S4096x256 .bf16)
    (acc : S512x4096.Idx → EReal)
    (ha : ∀ (r : Fin 512) (j : Fin 256), a (ix2 r j) = argX m c (ix2 (row α r) (col κ j)))
    (hw : ∀ (o : Fin 4096) (j : Fin 256), w (ix2 o j) = argW m c (ix2 o (col κ j))) :
    k0_pay2 (F := Ideal) a w acc = acc + share m c α κ := by
  funext y
  obtain ⟨r, o, rfl⟩ : ∃ (r : Fin 512) (o : Fin 4096), y = ix2 r o := ⟨y 0, y 1, eq_ix2 y⟩
  refine (Payload.step_apply a w acc r o).trans ?_
  rw [Pi.add_apply, share_apply]
  refine congrArg (acc (ix2 r o) + ·) (Finset.sum_congr rfl fun j _ => ?_)
  rw [ha r j, hw o j]

/-- The same from the zero block. -/
theorem first_step_share (c : Dev nD) (α κ : Fin 16) (a : Vec Ideal S512x256 .bf16) (w : Vec Ideal S4096x256 .bf16)
    (ha : ∀ (r : Fin 512) (j : Fin 256), a (ix2 r j) = argX m c (ix2 (row α r) (col κ j)))
    (hw : ∀ (o : Fin 4096) (j : Fin 256), w (ix2 o j) = argW m c (ix2 o (col κ j))) :
    k0_pay2 (F := Ideal) a w (k0_pay1 (F := Ideal)) = 0 + share m c α κ := by
  rw [step_adds_share m c α κ a w _ ha hw]
  exact congrArg (· + share m c α κ) (funext fun y => Payload.reset_apply y)

/-- After step `16 α + q` the scratch holds the running total of the shares of column blocks 0 … q. -/
theorem scratch_eq (c : Dev nD) (α : Fin 16) : ∀ (q : ℕ) (hq : q < 16) (h : 16 * α.val + q < cfg0.N),
    (outsAt0 m c (16 * α.val + q) h).2 = runTotal (fun κ : Fin 16 => share m c α κ) q hq
  | 0, hq, h => by
    have h0 : (⟨16 * α.val + 0, h⟩ : Fin cfg0.N).val % 16 = 0 := by dsimp only; omega
    have h1 : ¬(⟨16 * α.val + 0, h⟩ : Fin cfg0.N).val % 16 = 15 := by dsimp only; omega
    have e := outsAt0_A m c ⟨16 * α.val + 0, h⟩ h0 h1
    dsimp only at e
    rw [e]
    dsimp only
    rw [Pieces.scratch_first]
    exact first_step_share m c α ⟨0, hq⟩ _ _
      (fun r j => x_block m c ⟨16 * α.val + 0, h⟩ α ⟨0, hq⟩ rfl r j)
      (fun o j => w_block m c ⟨16 * α.val + 0, h⟩ α ⟨0, hq⟩ rfl o j)
  | q + 1, hq, h => by
    have h0 : ¬(⟨16 * α.val + (q + 1), h⟩ : Fin cfg0.N).val % 16 = 0 := by dsimp only; omega
    have ih := scratch_eq c α q (Nat.lt_of_succ_lt hq) (Nat.lt_of_succ_lt h)
    have hstep : k0_pay2 (F := Ideal) (iblk m c 0 ⟨16 * α.val + (q + 1), h⟩) (iblk m c 1 ⟨16 * α.val + (q + 1), h⟩)
        (outsAt0 m c (16 * α.val + q) (Nat.lt_of_succ_lt h)).2 = runTotal (fun κ : Fin 16 => share m c α κ) (q + 1) hq := by
      rw [ih]
      exact step_adds_share m c α ⟨q + 1, hq⟩ _ _ _
        (fun r j => x_block m c ⟨16 * α.val + (q + 1), h⟩ α ⟨q + 1, hq⟩ rfl r j)
        (fun o j => w_block m c ⟨16 * α.val + (q + 1), h⟩ α ⟨q + 1, hq⟩ rfl o j)
    by_cases h1 : (⟨16 * α.val + (q + 1), h⟩ : Fin cfg0.N).val % 16 = 15
    · have e := outsAt0_C m c ⟨16 * α.val + (q + 1), h⟩ h0 h1
      dsimp only at e
      rw [e]
      dsimp only
      rw [Pieces.scratch_last]
      exact hstep
    · have e := outsAt0_B m c ⟨16 * α.val + (q + 1), h⟩ h0 h1
      dsimp only at e
      rw [e]
      dsimp only
      rw [Pieces.scratch_middle]
      exact hstep

/-- After the last step of row block `α` the scratch holds the sum of the sixteen shares. -/
theorem scratch_last_eq (c : Dev nD) (α : Fin 16) (h : 16 * α.val + 15 < cfg0.N) :
    (outsAt0 m c (16 * α.val + 15) h).2 = ∑ κ : Fin 16, share m c α κ :=
  (scratch_eq m c α 15 (by decide) h).trans (Cert.LibRunTotal.runTotal_last rfl _ _)

/-- The same, at a step known to be the last of row block `α`. -/
theorem scratch_at_last (c : Dev nD) (t : Fin cfg0.N) (α : Fin 16) (ht : t.val = 16 * α.val + 15) :
    (outsAt0 m c t.val t.isLt).2 = ∑ κ : Fin 16, share m c α κ := by
  obtain ⟨n, hn⟩ := t
  dsimp only at ht
  subst ht
  exact scratch_last_eq m c α hn

end Cert.KernelIdeal.Running

end
-- ==== Proof.Final.lean ====
/-
  The kernel's result array. The output block of row block `α` is written back once, after the last of its sixteen
  steps; what is written is the scratch after that step — the sum of the sixteen column blocks' shares, which is the
  whole row product — plus the bias row: rows 512 α … 512 α + 511 of the affine map. The sixteen row blocks tile
  the 8192 rows (row n lies in row block n / 512), so the array ends holding the affine map everywhere.
-/
import proofs.«160339_j15874199126079_2_alg».proof.Proof.Gen.KernelIdeal.Value
import proofs.«160339_j15874199126079_2_alg».proof.Proof.Running

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Running
open Cert.Affine (affine rowDot blockDot)
open scoped BigOperators

variable (m : (ℓ : Loc nD τ sig) → Buf (Elt Ideal) ℓ) (ρ : Dev nD → PrngReg)

/-- The affine map of the three arguments as launched, on core `c`. -/
abbrev result (c : Dev nD) : S8192x4096.Idx → EReal := affine (argX m c) (argW m c) (argB m c)

/-- What a step that writes its output block back writes: that block of the affine map. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have h0 : ¬t.val % 16 = 0 := by omega
  have hN : t.val < 256 := lt_of_lt_of_eq t.isLt (show cfg0.N = 256 from N_0)
  obtain ⟨α, hα⟩ : ∃ α : Fin 16, t.val = 16 * α.val + 15 := ⟨⟨t.val / 16, by omega⟩, by dsimp only; omega⟩
  have hlast : t.val = 16 * α.val + (⟨15, by decide⟩ : Fin 16).val := hα
  -- the scratch after this step is the step applied to what the step before left
  have e2 : (outsAt0 m c t.val t.isLt).2 = k0_pay2 (F := Ideal) (iblk m c 0 t) (iblk m c 1 t)
      (outsAt0 m c (t.val - 1) (Nat.lt_of_le_of_lt (Nat.sub_le _ _) t.isLt)).2 := by
    rw [outsAt0_C m c t h0 h1]
    dsimp only
    rw [Pieces.scratch_last]
  rw [Value.flushed3_C m c t h0 h1, Pieces.output_last, ← e2, scratch_at_last m c t α hα]
  funext y
  obtain ⟨r, o, rfl⟩ : ∃ (r : Fin 512) (o : Fin 4096), y = ix2 r o := ⟨y 0, y 1, eq_ix2 y⟩
  show k0_pay3 (F := Ideal) (∑ κ : Fin 16, share m c α κ) (iblk m c 2 t) (ix2 r o)
    = result m c (((cfg0.win 3).blk t).view.emb (ix2 r o))
  rw [out_block_entry t α ⟨15, by decide⟩ hlast r o]
  refine (Payload.addBias_apply _ _ r o).trans ?_
  rw [b_block m c t o, Finset.sum_apply]
  show (∑ κ : Fin 16, blockDot (argX m c) (argW m c) (row α r) o κ) + argB m c (ix1 o)
    = rowDot (argX m c) (argW m c) (row α r) o + argB m c (ix1 o)
  rw [Cert.Affine.rowDot_eq_sum_blocks]

/-- An entry of the result lies in step `t`'s output block iff each coordinate is in the block's range. -/
theorem mem_block (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v3).slice (win0_3.rect t)).set ↔ _
  rw [View.set_slice_whole, Rect.mem_set_unit]
  exact Iff.rfl

/-- Every entry of the result is in the output block of the last step of its row block. -/
theorem covered (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have ht : 16 * ((i 0).val / 512) + 15 < cfg0.N := by rw [show cfg0.N = 256 from N_0]; omega
  refine ⟨⟨16 * ((i 0).val / 512) + 15, ht⟩, (flush0_3 _).mpr (by dsimp only; omega), ?_⟩
  rw [mem_block]
  obtain ⟨-, -, -, -, -, -, e0, e1⟩ := block_indices ⟨16 * ((i 0).val / 512) + 15, ht⟩
  dsimp only at e0
  intro a
  match a with
  | ⟨0, _⟩ =>
    show win0_3.index ⟨16 * ((i 0).val / 512) + 15, ht⟩ (0 : Fin 2) * 512 ≤ (i 0).val
      ∧ (i 0).val < win0_3.index ⟨16 * ((i 0).val / 512) + 15, ht⟩ (0 : Fin 2) * 512 + 512
    rw [e0]; omega
  | ⟨1, _⟩ =>
    show win0_3.index ⟨16 * ((i 0).val / 512) + 15, ht⟩ (1 : Fin 2) * 4096 ≤ (i 1).val
      ∧ (i 1).val < win0_3.index ⟨16 * ((i 0).val / 512) + 15, ht⟩ (1 : Fin 2) * 4096 + 4096
    rw [e1]; omega

/-- The result array after the run is the affine map of the arguments. -/
theorem final (c : Dev nD) : (dats m 0 c).arrAt 3 cfg0.N = result m c :=
  (dats m 0 c).arrAt_eq_of_cover 3 (result m c) (flushed_eq m c) covered

/-- The kernel's run, read: the result array at the affine map, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefAffine.lean ====
/-
  The reference program's result, entry by entry, is the affine map: its product contracts the second axis of both
  operands (row n of `x` against row o of `w`, summed over the 4096 columns), and the bias, broadcast first to one row
  and then down the 8192 rows, contributes `b[o]` at entry (n, o).
-/
import proofs.«160339_j15874199126079_2_alg».proof.Proof.Gen.ReferenceIdeal.Read
import proofs.«160339_j15874199126079_2_alg».proof.Proof.Affine

noncomputable section

namespace Cert.ReferenceIdeal.RefValue

open Idealize.ShloMosaic Idealize.ShloMosaic.ValueIdx
open Cert.ReferenceIdeal Cert.ReferenceIdeal.Gen
open Cert.Affine (affine rowDot)
open scoped BigOperators

/-- The reference's last stage is the affine map of its three arguments. -/
theorem result_eq_affine (x : FVec Ideal S8192x4096 .f32) (w : FVec Ideal S4096x4096 .f32) (b : FVec Ideal S4096 .f32) :
    Read.val_main_v3 (F := Ideal) x w b = affine x w b := by
  funext i
  have el : ∀ k : Fin 4096, Read.lidx_main_v0 i k = ix2 (i 0) k := fun k => funext fun ax => by
    match ax with
    | ⟨0, _⟩ => rfl
    | ⟨1, _⟩ => rfl
  have er : ∀ k : Fin 4096, Read.ridx_main_v0 i k = ix2 (i 1) k := fun k => funext fun ax => by
    match ax with
    | ⟨0, _⟩ => rfl
    | ⟨1, _⟩ => rfl
  have eb : Read.idx_main_v1 (Read.idx_main_v2 i) = ix1 (i 1) := funext fun ax => by
    match ax with
    | ⟨0, _⟩ => rfl
  rw [Read.val_main_v3_apply, Read.val_main_v0_apply, Read.val_main_v2_apply, Read.val_main_v1_apply]
  simp only [el, er, eb]
  rfl

end Cert.ReferenceIdeal.RefValue

end
-- ==== Proof.lean ====
/-
  A linear layer, y = x · wᵀ + b, with x of shape [8192, 4096], w of shape [4096, 4096] (one row per output
  column) and b of shape [4096].

  The kernel walks a 16 × 16 grid: row block α (512 rows of x) against column block κ (256 columns of x and of w).
  Each step multiplies its two blocks and adds the [512, 4096] product to a running total that is reset at κ = 0;
  after κ = 15 the total plus the bias row is written out as rows 512 α … 512 α + 511 of the result. The reference
  contracts all 4096 columns at once and adds the bias.

  Over the extended reals the two agree entry by entry: a sum over 4096 columns is the sum over the sixteen column
  blocks of the blocks' sums, added in any order — commutativity and associativity of `+` only, so no entry needs to be
  finite and the precondition is never opened. The kernel first rounds x and w to a narrower float format; on the
  extended reals that is the identity, and the idealized kernel is the printed kernel read there (nothing was rewritten).
-/
import proofs.«160339_j15874199126079_2_alg».proof.Defs
import proofs.«160339_j15874199126079_2_alg».proof.Proof.Gen.Kernel
import proofs.«160339_j15874199126079_2_alg».proof.Proof.Gen.Kernel.Frame
import proofs.«160339_j15874199126079_2_alg».proof.Proof.Gen.KernelIdeal
import proofs.«160339_j15874199126079_2_alg».proof.Proof.Gen.KernelIdeal.Frame
import proofs.«160339_j15874199126079_2_alg».proof.Proof.Gen.KernelIdeal.Value
import proofs.«160339_j15874199126079_2_alg».proof.Proof.Gen.ReferenceIdeal
import proofs.«160339_j15874199126079_2_alg».proof.Proof.Gen.ReferenceIdeal.Run
import proofs.«160339_j15874199126079_2_alg».proof.Proof.Gen.ReferenceIdeal.Read
import proofs.«160339_j15874199126079_2_alg».proof.Proof.Gen.Pre_finite_inputs
import proofs.«160339_j15874199126079_2_alg».proof.Proof.Final
import proofs.«160339_j15874199126079_2_alg».proof.Proof.RefAffine
import Idealize.ShloMosaic.Adequacy
import Idealize.ShloMosaic.Init

noncomputable section

namespace Cert.Proof

open Idealize.ShloMosaic Idealize.SL.Sem

/-- The printed kernel runs to the end, faults nowhere, and leaves its three arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is four host operations in a row: it runs to the end and leaves its arguments as they were. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, both programs end with the affine map of those arguments in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
